-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x512 : Shape := ⟨4, ![32, 3, 512, 512]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts]

def fn {F : FTy → Type} [FloatOps F] (main_arg0 : FVec F S32x3x512x512 .f32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  main_v3
-- ==== Kernel.lean ====
abbrev S32x3x512x512 : Shape := ⟨4, ![32, 3, 512, 512]⟩
abbrev S32x1x512x512 : Shape := ⟨4, ![32, 1, 512, 512]⟩
abbrev S32x512x512 : Shape := ⟨3, ![32, 512, 512]⟩
abbrev S32x256x2x256x2 : Shape := ⟨5, ![32, 256, 2, 256, 2]⟩
abbrev S32x256x1x256x1 : Shape := ⟨5, ![32, 256, 1, 256, 1]⟩
abbrev S32x256x256 : Shape := ⟨3, ![32, 256, 256]⟩
abbrev S32x1x256x256 : Shape := ⟨4, ![32, 1, 256, 256]⟩
abbrev S32x4x256x256 : Shape := ⟨4, ![32, 4, 256, 256]⟩
abbrev S1x4x256x256 : Shape := ⟨4, ![1, 4, 256, 256]⟩
abbrev S1x1x256x256 : Shape := ⟨4, ![1, 1, 256, 256]⟩
abbrev S256x256 : Shape := ⟨2, ![256, 256]⟩

abbrev nBuf : Space → Nat
  | .hbm => 18
  | .vmem => 4
  | .smem => 0
  | _ => 0

abbrev bufTy : (tb : Table) → Fin (tcTables nBuf tb) → BufTy
  | .hbm, ⟨0, _⟩ => ⟨S32x3x512x512, .f32⟩
  | .hbm, ⟨1, _⟩ => ⟨S32x1x512x512, .f32⟩
  | .hbm, ⟨2, _⟩ => ⟨S32x512x512, .f32⟩
  | .hbm, ⟨3, _⟩ => ⟨S32x256x2x256x2, .f32⟩
  | .hbm, ⟨4, _⟩ => ⟨S32x256x1x256x1, .f32⟩
  | .hbm, ⟨5, _⟩ => ⟨S32x256x256, .f32⟩
  | .hbm, ⟨6, _⟩ => ⟨S32x256x1x256x1, .f32⟩
  | .hbm, ⟨7, _⟩ => ⟨S32x256x256, .f32⟩
  | .hbm, ⟨8, _⟩ => ⟨S32x256x1x256x1, .f32⟩
  | .hbm, ⟨9, _⟩ => ⟨S32x256x256, .f32⟩
  | .hbm, ⟨10, _⟩ => ⟨S32x256x1x256x1, .f32⟩
  | .hbm, ⟨11, _⟩ => ⟨S32x256x256, .f32⟩
  | .hbm, ⟨12, _⟩ => ⟨S32x1x256x256, .f32⟩
  | .hbm, ⟨13, _⟩ => ⟨S32x1x256x256, .f32⟩
  | .hbm, ⟨14, _⟩ => ⟨S32x1x256x256, .f32⟩
  | .hbm, ⟨15, _⟩ => ⟨S32x1x256x256, .f32⟩
  | .hbm, ⟨16, _⟩ => ⟨S32x4x256x256, .f32⟩
  | .hbm, ⟨17, _⟩ => ⟨S32x4x256x256, .f32⟩
  | .local _ .vmem, ⟨0, _⟩ => ⟨S1x4x256x256, .f32⟩
  | .local _ .vmem, ⟨1, _⟩ => ⟨S1x4x256x256, .f32⟩
  | .local _ .vmem, ⟨2, _⟩ => ⟨S1x4x256x256, .f32⟩
  | .local _ .vmem, ⟨3, _⟩ => ⟨S1x4x256x256, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  slices_S32x3x512x512_S32x1x512x512_0_0_0_0 : S32x3x512x512.Slices ![0, 0, 0, 0] S32x1x512x512
  shapeCasts_S32x1x512x512_S32x512x512 : S32x1x512x512.ShapeCasts S32x512x512
  shapeCasts_S32x512x512_S32x256x2x256x2 : S32x512x512.ShapeCasts S32x256x2x256x2
  slices_S32x256x2x256x2_S32x256x1x256x1_0_0_0_0_0 : S32x256x2x256x2.Slices ![0, 0, 0, 0, 0] S32x256x1x256x1
  shapeCasts_S32x256x1x256x1_S32x256x256 : S32x256x1x256x1.ShapeCasts S32x256x256
  slices_S32x256x2x256x2_S32x256x1x256x1_0_0_0_0_1 : S32x256x2x256x2.Slices ![0, 0, 0, 0, 1] S32x256x1x256x1
  slices_S32x256x2x256x2_S32x256x1x256x1_0_0_1_0_0 : S32x256x2x256x2.Slices ![0, 0, 1, 0, 0] S32x256x1x256x1
  slices_S32x256x2x256x2_S32x256x1x256x1_0_0_1_0_1 : S32x256x2x256x2.Slices ![0, 0, 1, 0, 1] S32x256x1x256x1
  bcast_S32x256x256_S32x1x256x256_0_2_3 : S32x256x256.BroadcastsInDim S32x1x256x256 (![0, 2, 3] : Fin 3 → Fin S32x1x256x256.rank)
  concatenates_S32x1x256x256_S32x1x256x256_S32x1x256x256_S32x1x256x256_S32x4x256x256_d1 : Shape.Concatenates [S32x1x256x256, S32x1x256x256, S32x1x256x256, S32x1x256x256] S32x4x256x256 1
  inb_S1x4x256x256_S1x1x256x256_0_0_0_0 : ∀ a, (![0, 0, 0, 0] : Fin 4 → Nat) a + S1x1x256x256.size a ≤ S1x4x256x256.size a
  h_S1x1x256x256 : 0 < S1x1x256x256.numel
  shapeCasts_S1x1x256x256_S256x256 : S1x1x256x256.ShapeCasts S256x256
  inb_S1x4x256x256_S1x1x256x256_0_1_0_0 : ∀ a, (![0, 1, 0, 0] : Fin 4 → Nat) a + S1x1x256x256.size a ≤ S1x4x256x256.size a
  inb_S1x4x256x256_S1x1x256x256_0_2_0_0 : ∀ a, (![0, 2, 0, 0] : Fin 4 → Nat) a + S1x1x256x256.size a ≤ S1x4x256x256.size a
  inb_S1x4x256x256_S1x1x256x256_0_3_0_0 : ∀ a, (![0, 3, 0, 0] : Fin 4 → Nat) a + S1x1x256x256.size a ≤ S1x4x256x256.size a
  shapeCasts_S256x256_S1x1x256x256 : S256x256.ShapeCasts S1x1x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x256x256.size a ≤ S32x4x256x256.size a
  hwx0_0 : ∀ i : grid0.Coords, EltTy.bits .f32 = 32 ∨ (Rect.block (s := S32x4x256x256) S1x4x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x256x256.size a ≤ S32x4x256x256.size a
  hwx0_1 : ∀ i : grid0.Coords, EltTy.bits .f32 = 32 ∨ (Rect.block (s := S32x4x256x256) S1x4x256x256.size (cc0_transform_1 i) (hinb0_1 i)).WholeWords (EltTy.packing .f32)

variable [Facts₀]

abbrev win0_0 : Pipeline.Window sig grid0 :=
  Pipeline.Window.ofSpec (Memref.whole main_v15) S1x4x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1x4x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x3x512x512 : Shape := ⟨4, ![32, 3, 512, 512]⟩
abbrev S32x1x512x512 : Shape := ⟨4, ![32, 1, 512, 512]⟩
abbrev S32x512x512 : Shape := ⟨3, ![32, 512, 512]⟩
abbrev S32x256x2x256x2 : Shape := ⟨5, ![32, 256, 2, 256, 2]⟩
abbrev S32x256x1x256x1 : Shape := ⟨5, ![32, 256, 1, 256, 1]⟩
abbrev S32x256x256 : Shape := ⟨3, ![32, 256, 256]⟩
abbrev S_ : Shape := ⟨0, ![]⟩
abbrev S32x1x256x256 : Shape := ⟨4, ![32, 1, 256, 256]⟩
abbrev S32x4x256x256 : Shape := ⟨4, ![32, 4, 256, 256]⟩

abbrev nBuf : Space → Nat
  | .hbm => 41
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S32x1x512x512, .f32⟩
  | .hbm, ⟨2, _⟩ => ⟨S32x512x512, .f32⟩
  | .hbm, ⟨3, _⟩ => ⟨S32x256x2x256x2, .f32⟩
  | .hbm, ⟨4, _⟩ => ⟨S32x256x1x256x1, .f32⟩
  | .hbm, ⟨5, _⟩ => ⟨S32x256x256, .f32⟩
  | .hbm, ⟨6, _⟩ => ⟨S32x256x1x256x1, .f32⟩
  | .hbm, ⟨7, _⟩ => ⟨S32x256x256, .f32⟩
  | .hbm, ⟨8, _⟩ => ⟨S32x256x1x256x1, .f32⟩
  | .hbm, ⟨9, _⟩ => ⟨S32x256x256, .f32⟩
  | .hbm, ⟨10, _⟩ => ⟨S32x256x1x256x1, .f32⟩
  | .hbm, ⟨11, _⟩ => ⟨S32x256x256, .f32⟩
  | .hbm, ⟨12, _⟩ => ⟨S32x256x256, .f32⟩
  | .hbm, ⟨13, _⟩ => ⟨S32x256x256, .f32⟩
  | .hbm, ⟨14, _⟩ => ⟨S32x256x256, .f32⟩
  | .hbm, ⟨15, _⟩ => ⟨S_, .f32⟩
  | .hbm, ⟨16, _⟩ => ⟨S32x256x256, .f32⟩
  | .hbm, ⟨17, _⟩ => ⟨S32x256x256, .f32⟩
  | .hbm, ⟨18, _⟩ => ⟨S32x256x256, .f32⟩
  | .hbm, ⟨19, _⟩ => ⟨S32x256x256, .f32⟩
  | .hbm, ⟨20, _⟩ => ⟨S32x256x256, .f32⟩
  | .hbm, ⟨21, _⟩ => ⟨S_, .f32⟩
  | .hbm, ⟨22, _⟩ => ⟨S32x256x256, .f32⟩
  | .hbm, ⟨23, _⟩ => ⟨S32x256x256, .f32⟩
  | .hbm, ⟨24, _⟩ => ⟨S32x256x256, .f32⟩
  | .hbm, ⟨25, _⟩ => ⟨S32x256x256, .f32⟩
  | .hbm, ⟨26, _⟩ => ⟨S32x256x256, .f32⟩
  | .hbm, ⟨27, _⟩ => ⟨S_, .f32⟩
  | .hbm, ⟨28, _⟩ => ⟨S32x256x256, .f32⟩
  | .hbm, ⟨29, _⟩ => ⟨S32x256x256, .f32⟩
  | .hbm, ⟨30, _⟩ => ⟨S32x256x256, .f32⟩
  | .hbm, ⟨31, _⟩ => ⟨S32x256x256, .f32⟩
  | .hbm, ⟨32, _⟩ => ⟨S32x256x256, .f32⟩
  | .hbm, ⟨33, _⟩ => ⟨S_, .f32⟩
  | .hbm, ⟨34, _⟩ => ⟨S32x256x256, .f32⟩
  | .hbm, ⟨35, _⟩ => ⟨S32x256x256, .f32⟩
  | .hbm, ⟨36, _⟩ => ⟨S32x1x256x256, .f32⟩
  | .hbm, ⟨37, _⟩ => ⟨S32x1x256x256, .f32⟩
  | .hbm, ⟨38, _⟩ => ⟨S32x1x256x256, .f32⟩
  | .hbm, ⟨39, _⟩ => ⟨S32x1x256x256, .f32⟩
  | .hbm, ⟨40, _⟩ => ⟨S32x4x256x256, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_cst : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_cst_0 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst_1 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_2 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩

abbrev nD : Nat := 1
abbrev τ : Topo := Topo.v7x

variable {F : FTy → Type} [FloatOps F]

class Facts₀ : Prop where
  slices_S32x3x512x512_S32x1x512x512_0_0_0_0 : S32x3x512x512.Slices ![0, 0, 0, 0] S32x1x512x512
  shapeCasts_S32x1x512x512_S32x512x512 : S32x1x512x512.ShapeCasts S32x512x512
  shapeCasts_S32x512x512_S32x256x2x256x2 : S32x512x512.ShapeCasts S32x256x2x256x2
  slices_S32x256x2x256x2_S32x256x1x256x1_0_0_0_0_0 : S32x256x2x256x2.Slices ![0, 0, 0, 0, 0] S32x256x1x256x1
  shapeCasts_S32x256x1x256x1_S32x256x256 : S32x256x1x256x1.ShapeCasts S32x256x256
  slices_S32x256x2x256x2_S32x256x1x256x1_0_0_0_0_1 : S32x256x2x256x2.Slices ![0, 0, 0, 0, 1] S32x256x1x256x1
  slices_S32x256x2x256x2_S32x256x1x256x1_0_0_1_0_0 : S32x256x2x256x2.Slices ![0, 0, 1, 0, 0] S32x256x1x256x1
  slices_S32x256x2x256x2_S32x256x1x256x1_0_0_1_0_1 : S32x256x2x256x2.Slices ![0, 0, 1, 0, 1] S32x256x1x256x1
  bcast_S_S32x256x256 : S_.BroadcastsInDim S32x256x256 (![] : Fin 0 → Fin S32x256x256.rank)
  bcast_S32x256x256_S32x1x256x256_0_2_3 : S32x256x256.BroadcastsInDim S32x1x256x256 (![0, 2, 3] : Fin 3 → Fin S32x1x256x256.rank)
  concatenates_S32x1x256x256_S32x1x256x256_S32x1x256x256_S32x1x256x256_S32x4x256x256_d1 : Shape.Concatenates [S32x1x256x256, S32x1x256x256, S32x1x256x256, S32x1x256x256] S32x4x256x256 1

variable [Facts₀]

class Facts : Prop extends Facts₀ where

variable [Facts]
-- ==== Proof.KernelFrame.lean ====
/-
  The frame of the Haar kernel's program, at any float instance.

  The program first cuts channel 0 of the input into its four 2x2-parity planes, stacks them on a new axis of
  extent 4 (a [32, 4, 256, 256] array), and then runs the kernel on a grid of 32 points, one batch item per point.
  At point t the pipeline hands the body the block [t, :, :, :] of the stacked array (window 0) and a staging
  buffer for the block [t, :, :, :] of the result (window 1).  The body reads the four planes of its input block,
  forms the four Haar combinations and stores them as the four planes of the output block: four stores, each a
  [1, 1, 256, 256] rectangle, which together tile the [1, 4, 256, 256] buffer.  (It also loads each output plane
  before overwriting it; nothing reads those values.)

  This module states what the region finds in every buffer when it is entered (the host operations applied to
  the launch memory), what the body leaves in the output buffer as a function of the input block, the body's
  triple, the pipeline's proof data and the run of the whole program to the frame post: every array of the
  pipeline at what the proof data say, every other buffer as the region found it.  The argument array is written
  by no host operation and staged by no window, so it ends as launched.
-/
import proofs.«178225_j19481971654664_2_alg».proof.Proof.Gen.Kernel.Launch
import proofs.«178225_j19481971654664_2_alg».proof.Proof.Gen.Kernel.Skeleton
import proofs.«178225_j19481971654664_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Haar

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch memory after the sixteen host operations. -/
abbrev entry (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations and then the region, which finds the buffers at `entry`. -/
theorem main_to_region (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- No host operation writes the argument array: the region finds it as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, StableHlo.nary_writes,
      Finset.mem_singleton]
    repeat' apply And.intro
    all_goals exact StableHlo.devRef_ne_of_ne (by decide)))

/-! ## The blocks -/

/-- Window `w`'s block at point `t`, read off its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (entry m c (Pipeline.arrRef spec0 w))

/-- The input window is fetched at every point and only read by the body: whatever proof data keep its block in
    place find its block in the current staging buffer. -/
theorem input_before {c : Dev nD} (dat : Dat τ (Elt F) Unit ℕ (UR sig nD τ) ℕ cfg0 c)
    (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl)
      (fun t => by rw [hafter]; unfold Dat.blockOf blockAt; rw [hA]; try rfl) t d).trans
    (by unfold Dat.fetched Dat.blockOf blockAt; rw [hA]; try rfl)

/-! ## The body -/

/-- Plane `k` of a [1, 4, 256, 256] block, as the body's loads and stores name it. -/
abbrev plane0 : Rect S1x4x256x256 := Rect.unit (s := S1x4x256x256) ![0, 0, 0, 0] S1x1x256x256.size inb_S1x4x256x256_S1x1x256x256_0_0_0_0
abbrev plane1 : Rect S1x4x256x256 := Rect.unit (s := S1x4x256x256) ![0, 1, 0, 0] S1x1x256x256.size inb_S1x4x256x256_S1x1x256x256_0_1_0_0
abbrev plane2 : Rect S1x4x256x256 := Rect.unit (s := S1x4x256x256) ![0, 2, 0, 0] S1x1x256x256.size inb_S1x4x256x256_S1x1x256x256_0_2_0_0
abbrev plane3 : Rect S1x4x256x256 := Rect.unit (s := S1x4x256x256) ![0, 3, 0, 0] S1x1x256x256.size inb_S1x4x256x256_S1x1x256x256_0_3_0_0

/-- What the body leaves in the output buffer, from the input block `x`: its four stores, last first, each the
    Haar combination of the four planes of `x` that the store's plane carries. -/
def bodyOut (x : Vec F S1x4x256x256 .f32) : Vec F S1x4x256x256 .f32 :=
  View.canon
    [⟨plane3, k0_pay3 (k0_pay10 (View.ld x plane0) (View.ld x plane1) (View.ld x plane2) (View.ld x plane3))⟩,
     ⟨plane2, k0_pay2 (k0_pay9 (View.ld x plane0) (View.ld x plane1) (View.ld x plane2) (View.ld x plane3))⟩,
     ⟨plane1, k0_pay1 (k0_pay8 (View.ld x plane0) (View.ld x plane1) (View.ld x plane2) (View.ld x plane3))⟩,
     ⟨plane0, k0_pay11 (View.ld x plane0) (View.ld x plane1) (View.ld x plane2) (View.ld x plane3)⟩]

/-- The four planes tile the block, so the four stores cover the buffer. -/
theorem planes_cover (p3 p2 p1 p0 : Vec F S1x1x256x256 .f32) (y : S1x4x256x256.Idx) :
    ∃ pc ∈ ([⟨plane3, p3⟩, ⟨plane2, p2⟩, ⟨plane1, p1⟩, ⟨plane0, p0⟩] : List (View.Piece (Elt F) S1x4x256x256 .f32)), y ∈ pc.1.set :=
  View.cover_of_tiled [⟨plane3, p3⟩, ⟨plane2, p2⟩, ⟨plane1, p1⟩, ⟨plane0, p0⟩] S1x1x256x256.size (by rfl) y

set_option maxHeartbeats 1000000 in
/-- The body on whole staging memrefs, the input's at contents `x` and the output's at anything, runs to the
    continuation with the input's as it was and the output's at `bodyOut x`. -/
theorem body_triple (c : Dev nD) (E : Set ℕ) (i : grid0.Coords)
    (arg1 : Memref sig .tc .vmem S1x4x256x256 .f32) (harg1 : arg1.IsWhole)
    (arg2 : Memref sig .tc .vmem S1x4x256x256 .f32) (harg2 : arg2.IsWhole)
    (x : Vec F S1x4x256x256 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (bodyOut x)) -∗ K ⟨⟩))
      ⊢ wp frame (wpE (defs₀ (F := F)) Variants.none c none) E (cc0__haar_kernel i arg1 harg1 arg2 harg2) K := by
  simp only [cc0__haar_kernel_eq_skeleton]; unfold cc0__haar_kernel_skel
  simp only [k0_part1_eq_skeleton]; unfold k0_part1_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  try dsimp only
  exact View.read_writes_eq_canon _ _ _ (planes_cover _ _ _ _)

/-! ## The pipeline's proof data -/

/-- The proof data on core `c`: the arrays as the region finds them; after the body at point `t` the input's
    buffer still at its block and the output's at `bodyOut` of that block; the invariant the scoped rest and the
    generator register, untouched; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => bodyOut (blockAt m c 0 t)
  Φ _ := Pipeline.ΦA spec0 c
  q _ := fullShare
  owed _ := 0

theorem dats_A (c : Dev nD) (w : Fin cfg0.W) : (dats m 0 c).A w = entry m c (Pipeline.arrRef spec0 w) := by
  dsimp only [dats]

theorem after_in (c : Dev nD) (t : Fin cfg0.N) : (dats m 0 c).after 0 t = blockAt m c 0 t := by dsimp only [dats]
theorem after_out (c : Dev nD) (t : Fin cfg0.N) : (dats m 0 c).after 1 t = bodyOut (blockAt m c 0 t) := by dsimp only [dats]

theorem before_in (c : Dev nD) (t : Fin cfg0.N) (d) : (dats m 0 c).before 0 t d = blockAt m c 0 t :=
  input_before m (dats m 0 c) (dats_A m c 0) (after_in m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's memref holds its block, so the triple applies; the invariant and what the
    core owes pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl,
    after_in, after_out]
  iintro ⟨HΦ, Ho, ⟨%d0, H0⟩, ⟨%d1, H1⟩⟩
  iapply (body_triple c Set.univ (grid0.coords t) _ _ _ _ (blockAt m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- Every weakly fair execution of the program terminates, and every final state has the two arrays of the pipeline
    at what the proof data compute and every other unscoped buffer as the region found it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := main_to_region m Variants.none) (hA := dats_A m) (hΦ := fun _ _ => rfl)

/-- The frame: the program runs and its argument array ends as launched (no window stages it, no host operation
    writes it). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c =>
    ((h c).2 main_arg0 (Pipeline.mem_restRefs_of main_arg0 (by decide) (by decide))).trans (entry_arg0 m c)) (run_main m ρ)

end Cert.Kernel.Haar

end
-- ==== Proof.KernelIdealFrame.lean ====
/-
  The frame of the Haar kernel's program, at any float instance.

  The program first cuts channel 0 of the input into its four 2x2-parity planes, stacks them on a new axis of
  extent 4 (a [32, 4, 256, 256] array), and then runs the kernel on a grid of 32 points, one batch item per point.
  At point t the pipeline hands the body the block [t, :, :, :] of the stacked array (window 0) and a staging
  buffer for the block [t, :, :, :] of the result (window 1).  The body reads the four planes of its input block,
  forms the four Haar combinations and stores them as the four planes of the output block: four stores, each a
  [1, 1, 256, 256] rectangle, which together tile the [1, 4, 256, 256] buffer.  (It also loads each output plane
  before overwriting it; nothing reads those values.)

  This module states what the region finds in every buffer when it is entered (the host operations applied to
  the launch memory), what the body leaves in the output buffer as a function of the input block, the body's
  triple, the pipeline's proof data and the run of the whole program to the frame post: every array of the
  pipeline at what the proof data say, every other buffer as the region found it.  The argument array is written
  by no host operation and staged by no window, so it ends as launched.
-/
import proofs.«178225_j19481971654664_2_alg».proof.Proof.Gen.KernelIdeal.Launch
import proofs.«178225_j19481971654664_2_alg».proof.Proof.Gen.KernelIdeal.Skeleton
import proofs.«178225_j19481971654664_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Haar

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch memory after the sixteen host operations. -/
abbrev entry (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations and then the region, which finds the buffers at `entry`. -/
theorem main_to_region (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- No host operation writes the argument array: the region finds it as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, StableHlo.nary_writes,
      Finset.mem_singleton]
    repeat' apply And.intro
    all_goals exact StableHlo.devRef_ne_of_ne (by decide)))

/-! ## The blocks -/

/-- Window `w`'s block at point `t`, read off its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (entry m c (Pipeline.arrRef spec0 w))

/-- The input window is fetched at every point and only read by the body: whatever proof data keep its block in
    place find its block in the current staging buffer. -/
theorem input_before {c : Dev nD} (dat : Dat τ (Elt F) Unit ℕ (UR sig nD τ) ℕ cfg0 c)
    (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl)
      (fun t => by rw [hafter]; unfold Dat.blockOf blockAt; rw [hA]; try rfl) t d).trans
    (by unfold Dat.fetched Dat.blockOf blockAt; rw [hA]; try rfl)

/-! ## The body -/

/-- Plane `k` of a [1, 4, 256, 256] block, as the body's loads and stores name it. -/
abbrev plane0 : Rect S1x4x256x256 := Rect.unit (s := S1x4x256x256) ![0, 0, 0, 0] S1x1x256x256.size inb_S1x4x256x256_S1x1x256x256_0_0_0_0
abbrev plane1 : Rect S1x4x256x256 := Rect.unit (s := S1x4x256x256) ![0, 1, 0, 0] S1x1x256x256.size inb_S1x4x256x256_S1x1x256x256_0_1_0_0
abbrev plane2 : Rect S1x4x256x256 := Rect.unit (s := S1x4x256x256) ![0, 2, 0, 0] S1x1x256x256.size inb_S1x4x256x256_S1x1x256x256_0_2_0_0
abbrev plane3 : Rect S1x4x256x256 := Rect.unit (s := S1x4x256x256) ![0, 3, 0, 0] S1x1x256x256.size inb_S1x4x256x256_S1x1x256x256_0_3_0_0

/-- What the body leaves in the output buffer, from the input block `x`: its four stores, last first, each the
    Haar combination of the four planes of `x` that the store's plane carries. -/
def bodyOut (x : Vec F S1x4x256x256 .f32) : Vec F S1x4x256x256 .f32 :=
  View.canon
    [⟨plane3, k0_pay3 (k0_pay10 (View.ld x plane0) (View.ld x plane1) (View.ld x plane2) (View.ld x plane3))⟩,
     ⟨plane2, k0_pay2 (k0_pay9 (View.ld x plane0) (View.ld x plane1) (View.ld x plane2) (View.ld x plane3))⟩,
     ⟨plane1, k0_pay1 (k0_pay8 (View.ld x plane0) (View.ld x plane1) (View.ld x plane2) (View.ld x plane3))⟩,
     ⟨plane0, k0_pay11 (View.ld x plane0) (View.ld x plane1) (View.ld x plane2) (View.ld x plane3)⟩]

/-- The four planes tile the block, so the four stores cover the buffer. -/
theorem planes_cover (p3 p2 p1 p0 : Vec F S1x1x256x256 .f32) (y : S1x4x256x256.Idx) :
    ∃ pc ∈ ([⟨plane3, p3⟩, ⟨plane2, p2⟩, ⟨plane1, p1⟩, ⟨plane0, p0⟩] : List (View.Piece (Elt F) S1x4x256x256 .f32)), y ∈ pc.1.set :=
  View.cover_of_tiled [⟨plane3, p3⟩, ⟨plane2, p2⟩, ⟨plane1, p1⟩, ⟨plane0, p0⟩] S1x1x256x256.size (by rfl) y

set_option maxHeartbeats 1000000 in
/-- The body on whole staging memrefs, the input's at contents `x` and the output's at anything, runs to the
    continuation with the input's as it was and the output's at `bodyOut x`. -/
theorem body_triple (c : Dev nD) (E : Set ℕ) (i : grid0.Coords)
    (arg1 : Memref sig .tc .vmem S1x4x256x256 .f32) (harg1 : arg1.IsWhole)
    (arg2 : Memref sig .tc .vmem S1x4x256x256 .f32) (harg2 : arg2.IsWhole)
    (x : Vec F S1x4x256x256 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (bodyOut x)) -∗ K ⟨⟩))
      ⊢ wp frame (wpE (defs₀ (F := F)) Variants.none c none) E (cc0__haar_kernel i arg1 harg1 arg2 harg2) K := by
  simp only [cc0__haar_kernel_eq_skeleton]; unfold cc0__haar_kernel_skel
  simp only [k0_part1_eq_skeleton]; unfold k0_part1_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  try dsimp only
  exact View.read_writes_eq_canon _ _ _ (planes_cover _ _ _ _)

/-! ## The pipeline's proof data -/

/-- The proof data on core `c`: the arrays as the region finds them; after the body at point `t` the input's
    buffer still at its block and the output's at `bodyOut` of that block; the invariant the scoped rest and the
    generator register, untouched; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => bodyOut (blockAt m c 0 t)
  Φ _ := Pipeline.ΦA spec0 c
  q _ := fullShare
  owed _ := 0

theorem dats_A (c : Dev nD) (w : Fin cfg0.W) : (dats m 0 c).A w = entry m c (Pipeline.arrRef spec0 w) := by
  dsimp only [dats]

theorem after_in (c : Dev nD) (t : Fin cfg0.N) : (dats m 0 c).after 0 t = blockAt m c 0 t := by dsimp only [dats]
theorem after_out (c : Dev nD) (t : Fin cfg0.N) : (dats m 0 c).after 1 t = bodyOut (blockAt m c 0 t) := by dsimp only [dats]

theorem before_in (c : Dev nD) (t : Fin cfg0.N) (d) : (dats m 0 c).before 0 t d = blockAt m c 0 t :=
  input_before m (dats m 0 c) (dats_A m c 0) (after_in m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's memref holds its block, so the triple applies; the invariant and what the
    core owes pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl,
    after_in, after_out]
  iintro ⟨HΦ, Ho, ⟨%d0, H0⟩, ⟨%d1, H1⟩⟩
  iapply (body_triple c Set.univ (grid0.coords t) _ _ _ _ (blockAt m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- Every weakly fair execution of the program terminates, and every final state has the two arrays of the pipeline
    at what the proof data compute and every other unscoped buffer as the region found it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := main_to_region m Variants.none) (hA := dats_A m) (hΦ := fun _ _ => rfl)

/-- The frame: the program runs and its argument array ends as launched (no window stages it, no host operation
    writes it). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c =>
    ((h c).2 main_arg0 (Pipeline.mem_restRefs_of main_arg0 (by decide) (by decide))).trans (entry_arg0 m c)) (run_main m ρ)

end Cert.KernelIdeal.Haar

end
-- ==== Proof.LibStack4.lean ====
/-
  Four arrays of one rank-3 shape [n0, n2, n3], each given a unit axis in position 1 by `broadcast_in_dim` (dims
  [0, 2, 3]) and the four joined along that axis by `concatenate` — what stacking four arrays on a new axis 1
  lowers to — read at an index (p, k, r, s): the k-th array at (p, r, s).
-/
import Idealize.ShloMosaic.Lib.Pipeline.Value
import Idealize.ShloMosaic.Lib.ValueIdx

noncomputable section

namespace Cert.Stack4

open Idealize.ShloMosaic Idealize.ShloMosaic.ValueIdx

variable {α : Type}

/-- The `k`-th of four things (the fourth for any `k` past 2). -/
def pick4 {β : Type} (k : Nat) (g0 g1 g2 g3 : β) : β :=
  match k with
  | 0 => g0 | 1 => g1 | 2 => g2 | _ => g3

/-- An array given a unit axis in position 1, read at (p, 0, r, s): the array at (p, r, s). -/
theorem unit_axis_apply {n0 n2 n3 : Nat} (g : (⟨3, ![n0, n2, n3]⟩ : Shape).Idx → α)
    (hb : (⟨3, ![n0, n2, n3]⟩ : Shape).BroadcastsInDim ⟨4, ![n0, 1, n2, n3]⟩ (![0, 2, 3] : Fin 3 → Fin 4))
    (j : (⟨4, ![n0, 1, n2, n3]⟩ : Shape).Idx) :
    broadcastInDim (⟨4, ![n0, 1, n2, n3]⟩ : Shape) (![0, 2, 3] : Fin 3 → Fin 4) hb g j = g (ix3 (j 0) (j 2) (j 3)) := by
  refine broadcastInDim_apply _ hb g j _ fun a => ?_
  match a with
  | ⟨0, _⟩ =>
    show (j 0).val = if n0 = 1 then 0 else (j 0).val
    have h : (j 0).val < n0 := (j 0).isLt
    split <;> omega
  | ⟨1, _⟩ =>
    show (j 2).val = if n2 = 1 then 0 else (j 2).val
    have h : (j 2).val < n2 := (j 2).isLt
    split <;> omega
  | ⟨2, _⟩ =>
    show (j 3).val = if n3 = 1 then 0 else (j 3).val
    have h : (j 3).val < n3 := (j 3).isLt
    split <;> omega

/-- Four arrays stacked on a new axis 1, read at an index: the array its axis-1 coordinate names, at the other three
    coordinates. -/
theorem stack4_apply {n0 n2 n3 : Nat} (g0 g1 g2 g3 : (⟨3, ![n0, n2, n3]⟩ : Shape).Idx → α)
    (hb : (⟨3, ![n0, n2, n3]⟩ : Shape).BroadcastsInDim ⟨4, ![n0, 1, n2, n3]⟩ (![0, 2, 3] : Fin 3 → Fin 4))
    (hc : Shape.Concatenates [(⟨4, ![n0, 1, n2, n3]⟩ : Shape), ⟨4, ![n0, 1, n2, n3]⟩, ⟨4, ![n0, 1, n2, n3]⟩, ⟨4, ![n0, 1, n2, n3]⟩]
      ⟨4, ![n0, 4, n2, n3]⟩ 1)
    (i : (⟨4, ![n0, 4, n2, n3]⟩ : Shape).Idx) :
    concatenate (⟨4, ![n0, 4, n2, n3]⟩ : Shape) 1
        [⟨⟨4, ![n0, 1, n2, n3]⟩, broadcastInDim (⟨4, ![n0, 1, n2, n3]⟩ : Shape) (![0, 2, 3] : Fin 3 → Fin 4) hb g0⟩,
         ⟨⟨4, ![n0, 1, n2, n3]⟩, broadcastInDim (⟨4, ![n0, 1, n2, n3]⟩ : Shape) (![0, 2, 3] : Fin 3 → Fin 4) hb g1⟩,
         ⟨⟨4, ![n0, 1, n2, n3]⟩, broadcastInDim (⟨4, ![n0, 1, n2, n3]⟩ : Shape) (![0, 2, 3] : Fin 3 → Fin 4) hb g2⟩,
         ⟨⟨4, ![n0, 1, n2, n3]⟩, broadcastInDim (⟨4, ![n0, 1, n2, n3]⟩ : Shape) (![0, 2, 3] : Fin 3 → Fin 4) hb g3⟩] hc i
      = pick4 (i 1).val g0 g1 g2 g3 (ix3 (i 0) (i 2) (i 3)) := by
  have h1 : (i 1).val < 4 := (i 1).isLt
  -- the position inside the piece: the same coordinates, 0 on the unit axis
  let u : (⟨4, ![n0, 1, n2, n3]⟩ : Shape).Idx := ix4 (i 0) (0 : Fin 1) (i 2) (i 3)
  have hu : ∀ b : Fin 4, b.cast rfl ≠ (1 : Fin 4) → (u b).val = (i (b.cast rfl)).val := fun b hb' => by
    match b with
    | ⟨0, _⟩ => rfl
    | ⟨1, _⟩ => exact absurd rfl hb'
    | ⟨2, _⟩ => rfl
    | ⟨3, _⟩ => rfl
  let xs : List ((s : Shape) × (s.Idx → α)) :=
    [⟨⟨4, ![n0, 1, n2, n3]⟩, broadcastInDim (⟨4, ![n0, 1, n2, n3]⟩ : Shape) (![0, 2, 3] : Fin 3 → Fin 4) hb g0⟩,
     ⟨⟨4, ![n0, 1, n2, n3]⟩, broadcastInDim (⟨4, ![n0, 1, n2, n3]⟩ : Shape) (![0, 2, 3] : Fin 3 → Fin 4) hb g1⟩,
     ⟨⟨4, ![n0, 1, n2, n3]⟩, broadcastInDim (⟨4, ![n0, 1, n2, n3]⟩ : Shape) (![0, 2, 3] : Fin 3 → Fin 4) hb g2⟩,
     ⟨⟨4, ![n0, 1, n2, n3]⟩, broadcastInDim (⟨4, ![n0, 1, n2, n3]⟩ : Shape) (![0, 2, 3] : Fin 3 → Fin 4) hb g3⟩]
  obtain h | h | h | h : (i 1).val = 0 ∨ (i 1).val = 1 ∨ (i 1).val = 2 ∨ (i 1).val = 3 := by omega
  · rw [h]
    refine (concatenate_apply_piece (t := ⟨4, ![n0, 4, n2, n3]⟩) (1 : Fin 4) xs hc i 0 (by show (0 : Nat) < 4; omega) _ _ rfl rfl 0 rfl u hu (by show 0 + 0 = (i 1).val; omega)).trans ?_
    exact unit_axis_apply g0 hb u
  · rw [h]
    refine (concatenate_apply_piece (t := ⟨4, ![n0, 4, n2, n3]⟩) (1 : Fin 4) xs hc i 1 (by show (1 : Nat) < 4; omega) _ _ rfl rfl 1 rfl u hu (by show 1 + 0 = (i 1).val; omega)).trans ?_
    exact unit_axis_apply g1 hb u
  · rw [h]
    refine (concatenate_apply_piece (t := ⟨4, ![n0, 4, n2, n3]⟩) (1 : Fin 4) xs hc i 2 (by show (2 : Nat) < 4; omega) _ _ rfl rfl 2 rfl u hu (by show 2 + 0 = (i 1).val; omega)).trans ?_
    exact unit_axis_apply g2 hb u
  · rw [h]
    refine (concatenate_apply_piece (t := ⟨4, ![n0, 4, n2, n3]⟩) (1 : Fin 4) xs hc i 3 (by show (3 : Nat) < 4; omega) _ _ rfl rfl 3 rfl u hu (by show 3 + 0 = (i 1).val; omega)).trans ?_
    exact unit_axis_apply g3 hb u

end Cert.Stack4

end
-- ==== Proof.KernelIdealValue.lean ====
/-
  What the Haar kernel leaves in its result array, as one function of the stacked quadrant array it is run on.

  Write a, b, c, d for the four planes (axis 1) of a block.  The body leaves, in plane k of the output block, the
  k-th Haar combination of the four input planes at the same position:
    k = 0: ((a + b) + c) + d,  k = 1: ((a + b) - c) - d,  k = 2: ((a - b) + c) - d,  k = 3: ((a - b) - c) + d,
  each times one half.  The body's shape casts between [1, 1, 256, 256] and [256, 256] keep row-major order, so
  there and back they are the identity and the arithmetic is pointwise on the planes.  Point t of the grid handles
  batch item t: its input block is rows [t, :, :, :] of the stacked array and it writes rows [t, :, :, :] of the
  result, so the 32 blocks written back tile the result array and the array ends as the same combination of the
  stacked array's planes, index by index.
-/
import proofs.«178225_j19481971654664_2_alg».proof.Proof.KernelIdealFrame
import Idealize.ShloMosaic.Lib.Pipeline.Value
import Idealize.ShloMosaic.Lib.ValueIdx
import Idealize.ShloMosaic.Lib.StableHlo.Run
import proofs.«178225_j19481971654664_2_alg».proof.Proof.LibStack4

set_option maxRecDepth 16384

noncomputable section

namespace Cert.KernelIdeal.Haar

open Cert.KernelIdeal Cert.KernelIdeal.Gen
open Idealize.ShloMosaic Idealize.ShloMosaic.TcCoe Idealize.SL.Sem
open Idealize.ShloMosaic.Pipeline (Dat)

variable {F : FTy → Type} [FloatOps F]

/-! ## The four combinations -/

/-- The k-th Haar combination of the 2x2 cell (a b / c d), halved. -/
def haar (k : Nat) (a b c d : F .f32) : F .f32 :=
  match k with
  | 0 => FloatOps.mulf (FloatOps.addf (FloatOps.addf (FloatOps.addf a b) c) d) (Scalar.ofBits .f32 0x3F000000#32)
  | 1 => FloatOps.mulf (FloatOps.subf (FloatOps.subf (FloatOps.addf a b) c) d) (Scalar.ofBits .f32 0x3F000000#32)
  | 2 => FloatOps.mulf (FloatOps.subf (FloatOps.addf (FloatOps.subf a b) c) d) (Scalar.ofBits .f32 0x3F000000#32)
  | _ => FloatOps.mulf (FloatOps.addf (FloatOps.subf (FloatOps.subf a b) c) d) (Scalar.ofBits .f32 0x3F000000#32)

/-- A plane cast to [256, 256] and back is the plane. -/
theorem cast_cast (v : Vec F S1x1x256x256 .f32) :
    shapeCast S1x1x256x256 (shapeCast S256x256 v shapeCasts_S1x1x256x256_S256x256) shapeCasts_S256x256_S1x1x256x256 = v :=
  shapeCast_shapeCast v _ _

/-- The four stores' payloads, from the four loaded planes. -/
theorem pay_ll (a b c d : Vec F S1x1x256x256 .f32) :
    k0_pay11 a b c d = fun x => haar 0 (a x) (b x) (c x) (d x) := by
  conv_rhs => rw [← cast_cast a, ← cast_cast b, ← cast_cast c, ← cast_cast d]
  rfl
theorem pay_lh (a b c d : Vec F S1x1x256x256 .f32) :
    k0_pay1 (k0_pay8 a b c d) = fun x => haar 1 (a x) (b x) (c x) (d x) := by
  conv_rhs => rw [← cast_cast a, ← cast_cast b, ← cast_cast c, ← cast_cast d]
  rfl
theorem pay_hl (a b c d : Vec F S1x1x256x256 .f32) :
    k0_pay2 (k0_pay9 a b c d) = fun x => haar 2 (a x) (b x) (c x) (d x) := by
  conv_rhs => rw [← cast_cast a, ← cast_cast b, ← cast_cast c, ← cast_cast d]
  rfl
theorem pay_hh (a b c d : Vec F S1x1x256x256 .f32) :
    k0_pay3 (k0_pay10 a b c d) = fun x => haar 3 (a x) (b x) (c x) (d x) := by
  conv_rhs => rw [← cast_cast a, ← cast_cast b, ← cast_cast c, ← cast_cast d]
  rfl

/-! ## One block -/

/-- The index of plane `k` of a block at the position of `y`. -/
def blkPlane (y : S1x4x256x256.Idx) (k : Fin 4) : S1x4x256x256.Idx := fun a => match a with
  | ⟨0, _⟩ => y 0 | ⟨1, _⟩ => k | ⟨2, _⟩ => y 2 | ⟨3, _⟩ => y 3

/-- The output block as one function of the input block. -/
def haarBlock (x : Vec F S1x4x256x256 .f32) : Vec F S1x4x256x256 .f32 := fun y =>
  haar (y 1).val (x (blkPlane y 0)) (x (blkPlane y 1)) (x (blkPlane y 2)) (x (blkPlane y 3))

/-- Plane `J` of the input block at a position is the block at that plane's index of the position, whichever
    plane `K` the position is taken in. -/
theorem ld_plane (x : Vec F S1x4x256x256 .f32) (J K : Nat) (hJ : J < 4) (inbJ inbK) (x' : S1x1x256x256.Idx) :
    View.ld x (Rect.unit (s := S1x4x256x256) ![0, J, 0, 0] S1x1x256x256.size inbJ) x'
      = x (blkPlane ((Rect.unit (s := S1x4x256x256) ![0, K, 0, 0] S1x1x256x256.size inbK).emb x') ⟨J, hJ⟩) := by
  show x _ = x _
  congr 1
  funext a
  apply Fin.ext
  have h1 : (x' 1).val < 1 := (x' 1).isLt
  match a with
  | ⟨0, _⟩ => rfl
  | ⟨1, _⟩ => show J + 1 * (x' 1).val = J; omega
  | ⟨2, _⟩ => rfl
  | ⟨3, _⟩ => rfl

/-- The plane coordinate of a position taken in plane `K`. -/
theorem emb_plane (K : Nat) (inbK) (x' : S1x1x256x256.Idx) :
    (((Rect.unit (s := S1x4x256x256) ![0, K, 0, 0] S1x1x256x256.size inbK).emb x') 1).val = K := by
  have h1 : (x' 1).val < 1 := (x' 1).isLt
  show K + 1 * (x' 1).val = K; omega

/-- What the body leaves in the output buffer is `haarBlock` of the input block: each of the four stores carries
    the combination its plane names. -/
theorem bodyOut_eq (x : Vec F S1x4x256x256 .f32) : bodyOut x = haarBlock x := by
  funext y
  unfold bodyOut
  refine View.canon_apply_of_pieces (haarBlock x) _ ?_ y (planes_cover _ _ _ _ y)
  intro p hp x'
  simp only [List.mem_cons, List.not_mem_nil, or_false] at hp
  rcases hp with rfl | rfl | rfl | rfl
  · show k0_pay3 (k0_pay10 _ _ _ _) x' = haarBlock x (plane3.emb x')
    rw [pay_hh]; beta_reduce; unfold haarBlock; rw [emb_plane 3]
    rw [ld_plane x 0 3 (by decide) _ inb_S1x4x256x256_S1x1x256x256_0_3_0_0 x', ld_plane x 1 3 (by decide) _ inb_S1x4x256x256_S1x1x256x256_0_3_0_0 x', ld_plane x 2 3 (by decide) _ inb_S1x4x256x256_S1x1x256x256_0_3_0_0 x', ld_plane x 3 3 (by decide) _ inb_S1x4x256x256_S1x1x256x256_0_3_0_0 x']
    rfl
  · show k0_pay2 (k0_pay9 _ _ _ _) x' = haarBlock x (plane2.emb x')
    rw [pay_hl]; beta_reduce; unfold haarBlock; rw [emb_plane 2]
    rw [ld_plane x 0 2 (by decide) _ inb_S1x4x256x256_S1x1x256x256_0_2_0_0 x', ld_plane x 1 2 (by decide) _ inb_S1x4x256x256_S1x1x256x256_0_2_0_0 x', ld_plane x 2 2 (by decide) _ inb_S1x4x256x256_S1x1x256x256_0_2_0_0 x', ld_plane x 3 2 (by decide) _ inb_S1x4x256x256_S1x1x256x256_0_2_0_0 x']
    rfl
  · show k0_pay1 (k0_pay8 _ _ _ _) x' = haarBlock x (plane1.emb x')
    rw [pay_lh]; beta_reduce; unfold haarBlock; rw [emb_plane 1]
    rw [ld_plane x 0 1 (by decide) _ inb_S1x4x256x256_S1x1x256x256_0_1_0_0 x', ld_plane x 1 1 (by decide) _ inb_S1x4x256x256_S1x1x256x256_0_1_0_0 x', ld_plane x 2 1 (by decide) _ inb_S1x4x256x256_S1x1x256x256_0_1_0_0 x', ld_plane x 3 1 (by decide) _ inb_S1x4x256x256_S1x1x256x256_0_1_0_0 x']
    rfl
  · show k0_pay11 _ _ _ _ x' = haarBlock x (plane0.emb x')
    rw [pay_ll]; beta_reduce; unfold haarBlock; rw [emb_plane 0]
    rw [ld_plane x 0 0 (by decide) _ inb_S1x4x256x256_S1x1x256x256_0_0_0_0 x', ld_plane x 1 0 (by decide) _ inb_S1x4x256x256_S1x1x256x256_0_0_0_0 x', ld_plane x 2 0 (by decide) _ inb_S1x4x256x256_S1x1x256x256_0_0_0_0 x', ld_plane x 3 0 (by decide) _ inb_S1x4x256x256_S1x1x256x256_0_0_0_0 x']
    rfl

/-! ## The whole array -/

/-- The index of plane `k` of the stacked array at the position of `i`. -/
def arrPlane (i : S32x4x256x256.Idx) (k : Fin 4) : S32x4x256x256.Idx := fun a => match a with
  | ⟨0, _⟩ => i 0 | ⟨1, _⟩ => k | ⟨2, _⟩ => i 2 | ⟨3, _⟩ => i 3

/-- The result array as one function of the stacked array: at (n, k, p, q) the k-th combination of the stacked
    array's four planes at (n, ·, p, q). -/
def haarArray (Q : S32x4x256x256.Idx → F .f32) : S32x4x256x256.Idx → F .f32 := fun i =>
  haar (i 1).val (Q (arrPlane i 0)) (Q (arrPlane i 1)) (Q (arrPlane i 2)) (Q (arrPlane i 3))

/-- Both windows' index maps send point `t` to block (t, 0, 0, 0). -/
theorem index_facts : ∀ t : Fin cfg0.N,
    win0_0.index t (0 : Fin 4) = t.val ∧ win0_0.index t (1 : Fin 4) = 0 ∧ win0_0.index t (2 : Fin 4) = 0
    ∧ win0_0.index t (3 : Fin 4) = 0 ∧ win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)

variable (m : (ℓ : Loc nD τ sig) → Buf (Elt F) ℓ) (ρ : Dev nD → PrngReg)

/-- The input block at point `t` is row `t` of the stacked array. -/
theorem blockAt_in (c : Dev nD) (t : Fin cfg0.N) (y : S1x4x256x256.Idx) (i : S32x4x256x256.Idx)
    (h0 : (i 0).val = t.val) (h1 : (i 1).val = (y 1).val) (h2 : (i 2).val = (y 2).val) (h3 : (i 3).val = (y 3).val) :
    (blockAt m c 0 t : Vec F S1x4x256x256 .f32) y = (entry m c main_v15 : S32x4x256x256.Idx → F .f32) i := by
  obtain ⟨e0, e1, e2, e3, -⟩ := index_facts t
  have hy : (y 0).val < 1 := (y 0).isLt
  unfold blockAt
  rw [View.read_apply]
  show entry m c main_v15 _ = entry m c main_v15 _
  congr 1
  funext a
  apply Fin.ext
  match a with
  | ⟨0, _⟩ => show win0_0.index t (0 : Fin 4) * 1 + 1 * (y 0).val = (i 0).val; omega
  | ⟨1, _⟩ => show win0_0.index t (1 : Fin 4) * 4 + 1 * (y 1).val = (i 1).val; omega
  | ⟨2, _⟩ => show win0_0.index t (2 : Fin 4) * 256 + 1 * (y 2).val = (i 2).val; omega
  | ⟨3, _⟩ => show win0_0.index t (3 : Fin 4) * 256 + 1 * (y 3).val = (i 3).val; omega

/-- What point `t` writes back is block `t` of `haarArray` of the stacked array. -/
theorem flushed_eq (c : Dev nD) (t : Fin cfg0.N) :
    (dats m 0 c).flushed 1 t = ((cfg0.win 1).blk t).view.read (Elt F) (haarArray (entry m c main_v15)) := by
  show (cfg0.win 1).cut (grid0.coords t) ((dats m 0 c).after 1 t) = _
  rw [after_out, bodyOut_eq]
  obtain ⟨-, -, -, -, e0, e1, e2, e3⟩ := index_facts t
  funext j
  rw [View.read_apply]
  have hj0 : (j 0).val < 1 := (j 0).isLt
  have k1 : ((((cfg0.win 1).blk t).view.emb j) 1).val = (j 1).val := by
    show win0_1.index t (1 : Fin 4) * 4 + 1 * (j 1).val = (j 1).val; omega
  have hK : ∀ K : Fin 4, (blockAt m c 0 t : Vec F S1x4x256x256 .f32) (blkPlane ((cfg0.win 1).xinj (grid0.coords t) j) K)
      = (entry m c main_v15 : S32x4x256x256.Idx → F .f32) (arrPlane (((cfg0.win 1).blk t).view.emb j) K) := fun K =>
    blockAt_in m c t _ _
      (by show win0_1.index t (0 : Fin 4) * 1 + 1 * (j 0).val = t.val; omega)
      rfl
      (by show win0_1.index t (2 : Fin 4) * 256 + 1 * (j 2).val = (j 2).val; omega)
      (by show win0_1.index t (3 : Fin 4) * 256 + 1 * (j 3).val = (j 3).val; omega)
  show haar (j 1).val (blockAt m c 0 t (blkPlane ((cfg0.win 1).xinj (grid0.coords t) j) 0)) (blockAt m c 0 t (blkPlane ((cfg0.win 1).xinj (grid0.coords t) j) 1))
      (blockAt m c 0 t (blkPlane ((cfg0.win 1).xinj (grid0.coords t) j) 2)) (blockAt m c 0 t (blkPlane ((cfg0.win 1).xinj (grid0.coords t) j) 3))
    = haar ((((cfg0.win 1).blk t).view.emb j) 1).val (entry m c main_v15 (arrPlane (((cfg0.win 1).blk t).view.emb j) 0)) (entry m c main_v15 (arrPlane (((cfg0.win 1).blk t).view.emb j) 1))
      (entry m c main_v15 (arrPlane (((cfg0.win 1).blk t).view.emb j) 2)) (entry m c main_v15 (arrPlane (((cfg0.win 1).blk t).view.emb j) 3))
  rw [k1, hK 0, hK 1, hK 2, hK 3]

/-- An index of the result array lies in point `t`'s block iff each coordinate lies in the block's range. -/
theorem mem_block (t : Fin cfg0.N) (i : S32x4x256x256.Idx) :
    i ∈ ((cfg0.win 1).blk t).view.set ↔ ∀ a : Fin 4, win0_1.index t a * S1x4x256x256.size a ≤ (i a).val
      ∧ (i a).val < win0_1.index t a * S1x4x256x256.size a + S1x4x256x256.size a := by
  show i ∈ ((View.whole main_v16).slice (win0_1.rect t)).set ↔ _
  rw [View.set_slice_whole, Rect.mem_set_unit]
  exact Iff.rfl

/-- The 32 blocks tile the result array (index i lies in the block of point i 0), so it ends as `haarArray` of the
    stacked array. -/
theorem final_out (c : Dev nD) : (dats m 0 c).arrAt 1 cfg0.N = haarArray (entry m c main_v15) :=
  (dats m 0 c).arrAt_eq_of_cover 1 (haarArray (entry m c main_v15)) (fun t _ => flushed_eq m c t) fun i => by
    have hi0 : (i 0).val < 32 := (i 0).isLt
    have hi1 : (i 1).val < 4 := (i 1).isLt
    have hi2 : (i 2).val < 256 := (i 2).isLt
    have hi3 : (i 3).val < 256 := (i 3).isLt
    have hN : (i 0).val < cfg0.N := by rw [show cfg0.N = 32 from N_0]; exact hi0
    refine ⟨⟨(i 0).val, hN⟩, flush0_1 _, ?_⟩
    obtain ⟨-, -, -, -, e0', e1, e2, e3⟩ := index_facts ⟨(i 0).val, hN⟩
    have e0 : win0_1.index ⟨(i 0).val, hN⟩ (0 : Fin 4) = (i 0).val := e0'
    rw [mem_block]
    intro a
    match a with
    | ⟨0, _⟩ => show win0_1.index ⟨(i 0).val, hN⟩ (0 : Fin 4) * 1 ≤ (i 0).val ∧ (i 0).val < win0_1.index ⟨(i 0).val, hN⟩ (0 : Fin 4) * 1 + 1; rw [e0]; omega
    | ⟨1, _⟩ => show win0_1.index ⟨(i 0).val, hN⟩ (1 : Fin 4) * 4 ≤ (i 1).val ∧ (i 1).val < win0_1.index ⟨(i 0).val, hN⟩ (1 : Fin 4) * 4 + 4; rw [e1]; omega
    | ⟨2, _⟩ => show win0_1.index ⟨(i 0).val, hN⟩ (2 : Fin 4) * 256 ≤ (i 2).val ∧ (i 2).val < win0_1.index ⟨(i 0).val, hN⟩ (2 : Fin 4) * 256 + 256; rw [e2]; omega
    | ⟨3, _⟩ => show win0_1.index ⟨(i 0).val, hN⟩ (3 : Fin 4) * 256 ≤ (i 3).val ∧ (i 3).val < win0_1.index ⟨(i 0).val, hN⟩ (3 : Fin 4) * 256 + 256; rw [e3]; omega

/-- The run, read: the result array at `haarArray` of the stacked array as the region finds it, the argument as
    launched. -/
theorem run_value : θ_run defs (onTc (τ := τ) (main (F := F))) ⟨m, fun _ => 0, ρ⟩ fun r => ∀ c : Dev nD,
      r.2.mem ((c : Thread nD τ).loc main_v16) = haarArray (entry m c main_v15)
      ∧ r.2.mem ((c : Thread nD τ).loc main_arg0) = m ((c : Thread nD τ).loc main_arg0) :=
  (θ_run defs _ _).mono (fun r h c => ⟨((h c).1 1).trans (final_out m c),
      ((h c).2 main_arg0 (Pipeline.mem_restRefs_of main_arg0 (by decide) (by decide))).trans (entry_arg0 m c)⟩)
    (run_main m ρ)

/-! ## The stacked array the region is run on -/

/-- Channel 0 of the input with rows and columns split by parity: [32, 256, 2, 256, 2], entry (n, p, r, q, s) the
    input at (n, 0, 2p + r, 2q + s). -/
def parityView (x : (⟨S32x3x512x512, .f32⟩ : BufTy).Contents (Elt F)) : (⟨S32x256x2x256x2, .f32⟩ : BufTy).Contents (Elt F) :=
  shapeCast _ (shapeCast _ (extractStridedSlice S32x1x512x512 ![0, 0, 0, 0] x slices_S32x3x512x512_S32x1x512x512_0_0_0_0)
    shapeCasts_S32x1x512x512_S32x512x512) shapeCasts_S32x512x512_S32x256x2x256x2

/-- The four parity planes: a = even row, even column; b = even row, odd column; c = odd row, even column;
    d = odd row, odd column. -/
def quadA (x : (⟨S32x3x512x512, .f32⟩ : BufTy).Contents (Elt F)) : (⟨S32x256x256, .f32⟩ : BufTy).Contents (Elt F) :=
  shapeCast _ (extractStridedSlice S32x256x1x256x1 ![0, 0, 0, 0, 0] (parityView x) slices_S32x256x2x256x2_S32x256x1x256x1_0_0_0_0_0)
    shapeCasts_S32x256x1x256x1_S32x256x256
def quadB (x : (⟨S32x3x512x512, .f32⟩ : BufTy).Contents (Elt F)) : (⟨S32x256x256, .f32⟩ : BufTy).Contents (Elt F) :=
  shapeCast _ (extractStridedSlice S32x256x1x256x1 ![0, 0, 0, 0, 1] (parityView x) slices_S32x256x2x256x2_S32x256x1x256x1_0_0_0_0_1)
    shapeCasts_S32x256x1x256x1_S32x256x256
def quadC (x : (⟨S32x3x512x512, .f32⟩ : BufTy).Contents (Elt F)) : (⟨S32x256x256, .f32⟩ : BufTy).Contents (Elt F) :=
  shapeCast _ (extractStridedSlice S32x256x1x256x1 ![0, 0, 1, 0, 0] (parityView x) slices_S32x256x2x256x2_S32x256x1x256x1_0_0_1_0_0)
    shapeCasts_S32x256x1x256x1_S32x256x256
def quadD (x : (⟨S32x3x512x512, .f32⟩ : BufTy).Contents (Elt F)) : (⟨S32x256x256, .f32⟩ : BufTy).Contents (Elt F) :=
  shapeCast _ (extractStridedSlice S32x256x1x256x1 ![0, 0, 1, 0, 1] (parityView x) slices_S32x256x2x256x2_S32x256x1x256x1_0_0_1_0_1)
    shapeCasts_S32x256x1x256x1_S32x256x256

/-- The array the region is run on is the four parity planes of the argument stacked on a new axis 1. -/
theorem entry_stacked (c : Dev nD) :
    (entry m c main_v15 : S32x4x256x256.Idx → Elt F .f32) =
      concatenate S32x4x256x256 1
        [⟨S32x1x256x256, broadcastInDim S32x1x256x256 ![0, 2, 3] bcast_S32x256x256_S32x1x256x256_0_2_3 (quadA (m ((c : Thread nD τ).loc main_arg0)))⟩,
         ⟨S32x1x256x256, broadcastInDim S32x1x256x256 ![0, 2, 3] bcast_S32x256x256_S32x1x256x256_0_2_3 (quadB (m ((c : Thread nD τ).loc main_arg0)))⟩,
         ⟨S32x1x256x256, broadcastInDim S32x1x256x256 ![0, 2, 3] bcast_S32x256x256_S32x1x256x256_0_2_3 (quadC (m ((c : Thread nD τ).loc main_arg0)))⟩,
         ⟨S32x1x256x256, broadcastInDim S32x1x256x256 ![0, 2, 3] bcast_S32x256x256_S32x1x256x256_0_2_3 (quadD (m ((c : Thread nD τ).loc main_arg0)))⟩]
        concatenates_S32x1x256x256_S32x1x256x256_S32x1x256x256_S32x1x256x256_S32x4x256x256_d1 := by
  dsimp only [entry, hostOps0]
  after_results
  rfl

/-- The result array at (n, k, p, q): the k-th combination of the argument's four parity planes at (n, p, q). -/
theorem result_apply (c : Dev nD) (i : S32x4x256x256.Idx) :
    haarArray (entry m c main_v15) i
      = haar (i 1).val (quadA (m ((c : Thread nD τ).loc main_arg0)) (ValueIdx.ix3 (i 0) (i 2) (i 3)))
          (quadB (m ((c : Thread nD τ).loc main_arg0)) (ValueIdx.ix3 (i 0) (i 2) (i 3)))
          (quadC (m ((c : Thread nD τ).loc main_arg0)) (ValueIdx.ix3 (i 0) (i 2) (i 3)))
          (quadD (m ((c : Thread nD τ).loc main_arg0)) (ValueIdx.ix3 (i 0) (i 2) (i 3))) := by
  unfold haarArray
  rw [entry_stacked]
  have hK := fun K : Fin 4 => Cert.Stack4.stack4_apply (n0 := 32) (n2 := 256) (n3 := 256)
    (quadA (m ((c : Thread nD τ).loc main_arg0))) (quadB (m ((c : Thread nD τ).loc main_arg0)))
    (quadC (m ((c : Thread nD τ).loc main_arg0))) (quadD (m ((c : Thread nD τ).loc main_arg0)))
    bcast_S32x256x256_S32x1x256x256_0_2_3
    concatenates_S32x1x256x256_S32x1x256x256_S32x1x256x256_S32x1x256x256_S32x4x256x256_d1 (arrPlane i K)
  rw [hK 0, hK 1, hK 2, hK 3]
  rfl

end Cert.KernelIdeal.Haar

end
-- ==== Proof.Bridge.lean ====
/-
  The Haar kernel and its reference compute one array.

  Both programs first cut channel 0 of the input into its four 2x2-parity planes a, b, c, d (the same slices and
  reshapes, in the same order).  The kernel stacks the planes and combines them inside the region, plane k of the
  result being the k-th Haar combination; the reference combines the planes first and stacks the four combinations.
  Stacking reads, at (n, k, p, q), the k-th stacked array at (n, p, q), so at every index both results are the k-th
  combination of a, b, c, d at (n, p, q) — the same additions and subtractions in the same order and the same
  product with one half.  The equality holds of the operations as written, at any reading of the floats: no law of
  arithmetic is used, and the inputs' finiteness is not needed.
-/
import proofs.«178225_j19481971654664_2_alg».proof.Defs
import proofs.«178225_j19481971654664_2_alg».proof.Proof.KernelIdealValue
import proofs.«178225_j19481971654664_2_alg».proof.Proof.Gen.ReferenceIdeal.Run
import proofs.«178225_j19481971654664_2_alg».proof.Proof.Gen.ReferenceIdeal.Read
import proofs.«178225_j19481971654664_2_alg».proof.Proof.LibStack4

set_option maxRecDepth 16384

noncomputable section

namespace Cert.HaarBridge

open Idealize.ShloMosaic Idealize.ShloMosaic.TcCoe Idealize.SL.Sem
open Cert.KernelIdeal.Haar (haar haarArray entry quadA quadB quadC quadD)
open Cert.ReferenceIdeal (Read.val_main_v35)

variable {F : FTy → Type} [FloatOps F]

/-- The reference's result at (n, k, p, q): the k-th combination of its four parity planes at (n, p, q). -/
theorem reference_apply (x : (⟨Cert.ReferenceIdeal.S32x3x512x512, .f32⟩ : BufTy).Contents (Elt F))
    (i : Cert.ReferenceIdeal.S32x4x256x256.Idx) :
    Cert.ReferenceIdeal.Read.val_main_v35 (F := F) x i
      = haar (i 1).val (Cert.ReferenceIdeal.Read.val_main_v4 (F := F) x (ValueIdx.ix3 (i 0) (i 2) (i 3)))
          (Cert.ReferenceIdeal.Read.val_main_v6 (F := F) x (ValueIdx.ix3 (i 0) (i 2) (i 3)))
          (Cert.ReferenceIdeal.Read.val_main_v8 (F := F) x (ValueIdx.ix3 (i 0) (i 2) (i 3)))
          (Cert.ReferenceIdeal.Read.val_main_v10 (F := F) x (ValueIdx.ix3 (i 0) (i 2) (i 3))) := by
  have h1 : (i 1).val < 4 := (i 1).isLt
  unfold Cert.ReferenceIdeal.Read.val_main_v35 Cert.ReferenceIdeal.Read.val_main_v31 Cert.ReferenceIdeal.Read.val_main_v32
    Cert.ReferenceIdeal.Read.val_main_v33 Cert.ReferenceIdeal.Read.val_main_v34
  refine (Cert.Stack4.stack4_apply (n0 := 32) (n2 := 256) (n3 := 256) _ _ _ _ _ _ i).trans ?_
  obtain h | h | h | h : (i 1).val = 0 ∨ (i 1).val = 1 ∨ (i 1).val = 2 ∨ (i 1).val = 3 := by omega
  all_goals (rw [h]; rfl)

/-- The kernel's result array is the reference's result term of the same argument. -/
theorem results_eq (m : (ℓ : Loc Cert.KernelIdeal.nD Cert.KernelIdeal.τ Cert.KernelIdeal.sig) → Buf (Elt F) ℓ)
    (c : Dev Cert.KernelIdeal.nD) :
    haarArray (entry m c Cert.KernelIdeal.main_v15)
      = Cert.ReferenceIdeal.Read.val_main_v35 (F := F)
          (m ((c.tc : Thread Cert.KernelIdeal.nD Cert.KernelIdeal.τ).loc Cert.KernelIdeal.main_arg0)) := by
  funext i
  rw [Cert.KernelIdeal.Haar.result_apply]
  exact (reference_apply _ i).symm

end Cert.HaarBridge

end
-- ==== Proof.lean ====
/-
  The five claims about the Haar transform kernel (channel 0 of a [32, 3, 512, 512] input, one 2x2 Haar step,
  result [32, 4, 256, 256]) and its reference.

  * The two kernel programs (the printed one and its idealization, which is the same text read over the extended
    reals: the idealizing pass rewrote nothing) run to the end, fault nowhere and leave the input as launched:
    the host operations write fresh buffers only, the pipeline stages the stacked quadrant array and the result,
    never the input, and the body's four stores tile the output block.
  * The reference is a straight line of host operations; its run leaves the input as launched.
  * Nothing was rewritten, so there is nothing to preserve.
  * At the extended reals both programs end with the result array at the same function of the input: at
    (n, k, p, q) the k-th Haar combination — ((a+b)+c)+d, ((a+b)-c)-d, ((a-b)+c)-d, ((a-b)-c)+d, each times one
    half — of the input's four 2x2-parity planes at (n, p, q).  The two programs apply the same operations in the
    same order to the same four numbers, so no arithmetic law and no finiteness of the input is used.
-/
import proofs.«178225_j19481971654664_2_alg».proof.Defs
import proofs.«178225_j19481971654664_2_alg».proof.Proof.Gen.Kernel
import proofs.«178225_j19481971654664_2_alg».proof.Proof.Gen.Kernel.Skeleton
import proofs.«178225_j19481971654664_2_alg».proof.Proof.Gen.Kernel.Launch
import proofs.«178225_j19481971654664_2_alg».proof.Proof.Gen.Kernel.Points
import proofs.«178225_j19481971654664_2_alg».proof.Proof.Gen.KernelIdeal
import proofs.«178225_j19481971654664_2_alg».proof.Proof.Gen.KernelIdeal.Skeleton
import proofs.«178225_j19481971654664_2_alg».proof.Proof.Gen.KernelIdeal.Launch
import proofs.«178225_j19481971654664_2_alg».proof.Proof.Gen.KernelIdeal.Points
import proofs.«178225_j19481971654664_2_alg».proof.Proof.Gen.ReferenceIdeal
import proofs.«178225_j19481971654664_2_alg».proof.Proof.Gen.Pre_finite_inputs
import proofs.«178225_j19481971654664_2_alg».proof.Proof.Gen.ReferenceIdeal.Run
import proofs.«178225_j19481971654664_2_alg».proof.Proof.Gen.ReferenceIdeal.Read
import proofs.«178225_j19481971654664_2_alg».proof.Proof.KernelFrame
import proofs.«178225_j19481971654664_2_alg».proof.Proof.KernelIdealFrame
import proofs.«178225_j19481971654664_2_alg».proof.Proof.KernelIdealValue
import proofs.«178225_j19481971654664_2_alg».proof.Proof.Bridge
import Idealize.ShloMosaic.Adequacy
import Idealize.ShloMosaic.Init

noncomputable section

namespace Cert.Proof

open Idealize.ShloMosaic Idealize.SL.Sem Cert.Kernel

/-- The printed kernel program runs and leaves its input as launched. -/
theorem frame_kernel : Cert.frame_Kernel := fun m ρ _ => Cert.Kernel.Haar.frame m ρ

/-- So does its idealization. -/
theorem frame_kernelIdeal : Cert.frame_KernelIdeal := fun m ρ _ => Cert.KernelIdeal.Haar.frame m ρ

/-- The reference's run, with its result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the result array at the Haar combinations of the input's parity planes. -/
theorem algebraic : Cert.algebraic_KernelIdeal_ReferenceIdeal := by
  intro m ρ m' ρ' _ hagree
  refine ⟨_, Cert.KernelIdeal.Haar.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, hagree c]
  exact (Cert.HaarBridge.results_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
